-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8 : Shape := ⟨2, ![32, 8]⟩
abbrev S32x200000x8 : Shape := ⟨3, ![32, 200000, 8]⟩
abbrev S32x200000 : Shape := ⟨2, ![32, 200000]⟩
abbrev S32 : Shape := ⟨1, ![32]⟩
abbrev S8 : Shape := ⟨1, ![8]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel
  bcast_S_S32x200000x8 : S_.BroadcastsInDim S32x200000x8 (![] : Fin 0 → Fin S32x200000x8.rank)
  reducesTo_S32x200000x8_S_d0_1_2 : S32x200000x8.ReducesTo [0, 1, 2] S_
  bcast_S_S32x200000 : S_.BroadcastsInDim S32x200000 (![] : Fin 0 → Fin S32x200000.rank)
  reducesTo_S32x200000_S_d0_1 : S32x200000.ReducesTo [0, 1] S_
  bcast_S_S32 : S_.BroadcastsInDim S32 (![] : Fin 0 → Fin S32.rank)
  reducesTo_S32_S_d0 : S32.ReducesTo [0] S_
  bcast_S_S8 : S_.BroadcastsInDim S8 (![] : Fin 0 → Fin S8.rank)
  reducesTo_S8_S_d0 : S8.ReducesTo [0] S_
  reducesTo_S_S_d : S_.ReducesTo [] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S32 .f32) (main_arg5 : FVec F S8 .f32) (main_arg6 : FVec F S_ .f32) (main_arg7 : FVec F S_ .f32) (main_v13 : IVec S_ 1) (main_v16 : IVec S32x200000 1) : IVec S_ 1 :=
  let main_c_5 : IVec S_ 1 := constantI S_ 1 1#1
  let main_v17 : IVec S_ 1 := (fun x v => Host.reduce IntOp.andi x v reducesTo_S32x200000_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_v32 main_v33

def fn {F : FTy → Type} [FloatOps F] (main_arg0 : FVec F S32x8 .f32) (main_arg1 : FVec F S32x200000x8 .f32) (main_arg2 : FVec F S32x200000x8 .f32) (main_arg3 : FVec F S32x200000 .f32) (main_arg4 : FVec F S32 .f32) (main_arg5 : FVec F S8 .f32) (main_arg6 : FVec F S_ .f32) (main_arg7 : FVec F S_ .f32) : IVec S_ 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  let main_v4 : FVec F S32x200000x8 .f32 := Host.absf main_arg1
  let main_cst_0 : FVec F S_ .f32 := constant S_ .f32 0x7F800000#32
  let main_v5 : FVec F S32x200000x8 .f32 := broadcastInDim S32x200000x8 ![] bcast_S_S32x200000x8 main_cst_0
  let main_v6 : IVec S32x200000x8 1 := cmpf .olt main_v4 main_v5
  let main_c_1 : IVec S_ 1 := constantI S_ 1 1#1
  let main_v7 : IVec S_ 1 := (fun x v => Host.reduce IntOp.andi x v reducesTo_S32x200000x8_S_d0_1_2 h_S_) main_v6 main_c_1
  let main_v8 : IVec S_ 1 := andi main_v3 main_v7
  let main_v9 : FVec F S32x200000x8 .f32 := Host.absf main_arg2
  let main_cst_2 : FVec F S_ .f32 := constant S_ .f32 0x7F800000#32
  let main_v10 : FVec F S32x200000x8 .f32 := broadcastInDim S32x200000x8 ![] bcast_S_S32x200000x8 main_cst_2
  let main_v11 : IVec S32x200000x8 1 := cmpf .olt main_v9 main_v10
  let main_c_3 : IVec S_ 1 := constantI S_ 1 1#1
  let main_v12 : IVec S_ 1 := (fun x v => Host.reduce IntOp.andi x v reducesTo_S32x200000x8_S_d0_1_2 h_S_) main_v11 main_c_3
  let main_v13 : IVec S_ 1 := andi main_v8 main_v12
  let main_v14 : FVec F S32x200000 .f32 := Host.absf main_arg3
  let main_cst_4 : FVec F S_ .f32 := constant S_ .f32 0x7F800000#32
  let main_v15 : FVec F S32x200000 .f32 := broadcastInDim S32x200000 ![] bcast_S_S32x200000 main_cst_4
  let main_v16 : IVec S32x200000 1 := cmpf .olt main_v14 main_v15
  fn_part1 (F := F) main_arg4 main_arg5 main_arg6 main_arg7 main_v13 main_v16
-- ==== Kernel.lean ====
abbrev S32x8 : Shape := ⟨2, ![32, 8]⟩
abbrev S32x200000x8 : Shape := ⟨3, ![32, 200000, 8]⟩
abbrev S32x200000 : Shape := ⟨2, ![32, 200000]⟩
abbrev S32 : Shape := ⟨1, ![32]⟩
abbrev S8 : Shape := ⟨1, ![8]⟩
abbrev S_ : Shape := ⟨0, ![]⟩
abbrev S32x200000x1 : Shape := ⟨3, ![32, 200000, 1]⟩
abbrev S32x400x8 : Shape := ⟨3, ![32, 400, 8]⟩
abbrev S32x400x1 : Shape := ⟨3, ![32, 400, 1]⟩
abbrev S32x400 : Shape := ⟨2, ![32, 400]⟩
abbrev S32x1x8 : Shape := ⟨3, ![32, 1, 8]⟩
abbrev S1x8 : Shape := ⟨2, ![1, 8]⟩
abbrev S32x200001x8 : Shape := ⟨3, ![32, 200001, 8]⟩
abbrev S32x1 : Shape := ⟨2, ![32, 1]⟩
abbrev S32x200001 : Shape := ⟨2, ![32, 200001]⟩

abbrev nBuf : Space → Nat
  | .hbm => 26
  | .vmem => 8
  | .smem => 0
  | _ => 0

abbrev bufTy : (tb : Table) → Fin (tcTables nBuf tb) → BufTy
  | .hbm, ⟨0, _⟩ => ⟨S32x8, .f32⟩
  | .hbm, ⟨1, _⟩ => ⟨S32x200000x8, .f32⟩
  | .hbm, ⟨2, _⟩ => ⟨S32x200000x8, .f32⟩
  | .hbm, ⟨3, _⟩ => ⟨S32x200000, .f32⟩
  | .hbm, ⟨4, _⟩ => ⟨S32, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S32x200000x1, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S1x8, .f32⟩
  | .hbm, ⟨19, _⟩ => ⟨S32x8, .f32⟩
  | .hbm, ⟨20, _⟩ => ⟨S32x1x8, .f32⟩
  | .hbm, ⟨21, _⟩ => ⟨S32x200001x8, .f32⟩
  | .hbm, ⟨22, _⟩ => ⟨S32x1x8, .f32⟩
  | .hbm, ⟨23, _⟩ => ⟨S32x200001x8, .f32⟩
  | .hbm, ⟨24, _⟩ => ⟨S32x1, .f32⟩
  | .hbm, ⟨25, _⟩ => ⟨S32x200001, .f32⟩
  | .local _ .vmem, ⟨0, _⟩ => ⟨S32x8, .f32⟩
  | .local _ .vmem, ⟨1, _⟩ => ⟨S32x400x8, .f32⟩
  | .local _ .vmem, ⟨2, _⟩ => ⟨S32x400x8, .f32⟩
  | .local _ .vmem, ⟨3, _⟩ => ⟨S32x400x8, .f32⟩
  | .local _ .vmem, ⟨4, _⟩ => ⟨S32x400x8, .f32⟩
  | .local _ .vmem, ⟨5, _⟩ => ⟨S32x400x1, .f32⟩
  | .local _ .vmem, ⟨6, _⟩ => ⟨S32x400x1, .f32⟩
  | .local _ .vmem, ⟨7, _⟩ => ⟨S32, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x400x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x400x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x400x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S32x200000_S32x200000x1_0_1 : S32x200000.BroadcastsInDim S32x200000x1 (![0, 1] : Fin 2 → Fin S32x200000x1.rank)
  inb_S32_S32_0 : ∀ a, (![0] : Fin 1 → Nat) a + S32.size a ≤ S32.size a
  h_S32 : 0 < S32.numel
  inb_S32x8_S32x8_0_0 : ∀ a, (![0, 0] : Fin 2 → Nat) a + S32x8.size a ≤ S32x8.size a
  h_S32x8 : 0 < S32x8.numel
  inb_S32x400x8_S32x400x8_0_0_0 : ∀ a, (![0, 0, 0] : Fin 3 → Nat) a + S32x400x8.size a ≤ S32x400x8.size a
  h_S32x400x8 : 0 < S32x400x8.numel
  inb_S32x400x1_S32x400x1_0_0_0 : ∀ a, (![0, 0, 0] : Fin 3 → Nat) a + S32x400x1.size a ≤ S32x400x1.size a
  h_S32x400x1 : 0 < S32x400x1.numel
  shapeCasts_S32x400x1_S32x400x1 : S32x400x1.ShapeCasts S32x400x1
  shapeCasts_S32x400x1_S32x400 : S32x400x1.ShapeCasts S32x400
  shapeCasts_S32x8_S32x1x8 : S32x8.ShapeCasts S32x1x8
  broadcasts_S32x1x8_S32x400x8 : S32x1x8.Broadcasts S32x400x8
  reduces_S32x400x8_S32x400 : S32x400x8.Reduces [2] S32x400
  reduces_S32x400_S32 : S32x400.Reduces [1] S32
  shapeCasts_S32_S32 : S32.ShapeCasts S32
  bcast_S_S32 : S_.BroadcastsInDim S32 (![] : Fin 0 → Fin S32.rank)
  bcast_S8_S1x8_1 : S8.BroadcastsInDim S1x8 (![1] : Fin 1 → Fin S1x8.rank)
  bcast_S1x8_S32x8_0_1 : S1x8.BroadcastsInDim S32x8 (![0, 1] : Fin 2 → Fin S32x8.rank)
  bcast_S32x8_S32x1x8_0_2 : S32x8.BroadcastsInDim S32x1x8 (![0, 2] : Fin 2 → Fin S32x1x8.rank)
  concatenates_S32x200000x8_S32x1x8_S32x200001x8_d1 : Shape.Concatenates [S32x200000x8, S32x1x8] S32x200001x8 1
  bcast_S32_S32x1_0 : S32.BroadcastsInDim S32x1 (![0] : Fin 1 → Fin S32x1.rank)
  concatenates_S32x200000_S32x1_S32x200001_d1 : Shape.Concatenates [S32x200000, S32x1] S32x200001 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8.size a ≤ S32x8.size a
  hwx0_0 : ∀ i : grid0.Coords, EltTy.bits .f32 = 32 ∨ (Rect.block (s := S32x8) S32x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x400x8.size a ≤ S32x200000x8.size a
  hwx0_1 : ∀ i : grid0.Coords, EltTy.bits .f32 = 32 ∨ (Rect.block (s := S32x200000x8) S32x400x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x400x8.size a ≤ S32x200000x8.size a
  hwx0_2 : ∀ i : grid0.Coords, EltTy.bits .f32 = 32 ∨ (Rect.block (s := S32x200000x8) S32x400x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x400x1.size a ≤ S32x200000x1.size a
  hwx0_3 : ∀ i : grid0.Coords, EltTy.bits .f32 = 32 ∨ (Rect.block (s := S32x200000x1) S32x400x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)

variable [Facts₀]

abbrev win0_0 : Pipeline.Window sig grid0 :=
  Pipeline.Window.ofSpec (Memref.whole main_arg0) S32x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x400x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x400x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8 : Shape := ⟨2, ![32, 8]⟩
abbrev S32x200000x8 : Shape := ⟨3, ![32, 200000, 8]⟩
abbrev S32x200000 : Shape := ⟨2, ![32, 200000]⟩
abbrev S32 : Shape := ⟨1, ![32]⟩
abbrev S8 : Shape := ⟨1, ![8]⟩
abbrev S_ : Shape := ⟨0, ![]⟩
abbrev S32x1x8 : Shape := ⟨3, ![32, 1, 8]⟩
abbrev S1x8 : Shape := ⟨2, ![1, 8]⟩
abbrev S32x200001x8 : Shape := ⟨3, ![32, 200001, 8]⟩
abbrev S32x1 : Shape := ⟨2, ![32, 1]⟩
abbrev S32x200001 : Shape := ⟨2, ![32, 200001]⟩

abbrev nBuf : Space → Nat
  | .hbm => 38
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x200000x8, .f32⟩
  | .hbm, ⟨2, _⟩ => ⟨S32x200000x8, .f32⟩
  | .hbm, ⟨3, _⟩ => ⟨S32x200000, .f32⟩
  | .hbm, ⟨4, _⟩ => ⟨S32, .f32⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S32x1x8, .f32⟩
  | .hbm, ⟨9, _⟩ => ⟨S32x200000x8, .f32⟩
  | .hbm, ⟨10, _⟩ => ⟨S32x200000x8, .f32⟩
  | .hbm, ⟨11, _⟩ => ⟨S32x200000x8, .f32⟩
  | .hbm, ⟨12, _⟩ => ⟨S32x200000x8, .f32⟩
  | .hbm, ⟨13, _⟩ => ⟨S_, .f32⟩
  | .hbm, ⟨14, _⟩ => ⟨S32x200000, .f32⟩
  | .hbm, ⟨15, _⟩ => ⟨S_, .f32⟩
  | .hbm, ⟨16, _⟩ => ⟨S32x200000, .f32⟩
  | .hbm, ⟨17, _⟩ => ⟨S32x200000, .f32⟩
  | .hbm, ⟨18, _⟩ => ⟨S32x200000, .f32⟩
  | .hbm, ⟨19, _⟩ => ⟨S32x200000, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S1x8, .f32⟩
  | .hbm, ⟨31, _⟩ => ⟨S32x8, .f32⟩
  | .hbm, ⟨32, _⟩ => ⟨S32x1x8, .f32⟩
  | .hbm, ⟨33, _⟩ => ⟨S32x200001x8, .f32⟩
  | .hbm, ⟨34, _⟩ => ⟨S32x1x8, .f32⟩
  | .hbm, ⟨35, _⟩ => ⟨S32x200001x8, .f32⟩
  | .hbm, ⟨36, _⟩ => ⟨S32x1, .f32⟩
  | .hbm, ⟨37, _⟩ => ⟨S32x200001, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S32x8_S32x1x8_0_2 : S32x8.BroadcastsInDim S32x1x8 (![0, 2] : Fin 2 → Fin S32x1x8.rank)
  bcast_S32x1x8_S32x200000x8_0_1_2 : S32x1x8.BroadcastsInDim S32x200000x8 (![0, 1, 2] : Fin 3 → Fin S32x200000x8.rank)
  reducesTo_S32x200000x8_S32x200000_d2 : S32x200000x8.ReducesTo [2] S32x200000
  h_S_ : 0 < S_.numel
  bcast_S_S32x200000 : S_.BroadcastsInDim S32x200000 (![] : Fin 0 → Fin S32x200000.rank)
  reducesTo_S32x200000_S32_d1 : S32x200000.ReducesTo [1] S32
  bcast_S_S32 : S_.BroadcastsInDim S32 (![] : Fin 0 → Fin S32.rank)
  bcast_S8_S1x8_1 : S8.BroadcastsInDim S1x8 (![1] : Fin 1 → Fin S1x8.rank)
  bcast_S1x8_S32x8_0_1 : S1x8.BroadcastsInDim S32x8 (![0, 1] : Fin 2 → Fin S32x8.rank)
  concatenates_S32x200000x8_S32x1x8_S32x200001x8_d1 : Shape.Concatenates [S32x200000x8, S32x1x8] S32x200001x8 1
  bcast_S32_S32x1_0 : S32.BroadcastsInDim S32x1 (![0] : Fin 1 → Fin S32x1.rank)
  concatenates_S32x200000_S32x1_S32x200001_d1 : Shape.Concatenates [S32x200000, S32x1] S32x200001 1

variable [Facts₀]

class Facts : Prop extends Facts₀ where

variable [Facts]
-- ==== Proof.Pieces.lean ====
/-
  What each of the body's two cases leaves in the accumulator's staging buffer.

  At the first grid point the body stores zeros into the accumulator, reads them back, adds the tile's partial sums
  and stores the result; at every later point it reads the running value, adds and stores. Both cases end with one
  store that covers the whole 32-entry buffer, so the buffer's final contents are that store's value: the body's
  arithmetic applied to the tile and to the zeros (first point) or to the running value (later points).
-/
import proofs.«107596_j36000415875082_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A later point: the buffer held `xo`; it ends at the body's arithmetic of the tile and `xo`. -/
theorem later (c : Dev nD) (i : grid0.Coords) (a1 : Memref sig .tc .vmem S32x8 .f32) (h1 : a1.IsWhole)
    (a2 : Memref sig .tc .vmem S32x400x8 .f32) (h2 : a2.IsWhole) (a3 : Memref sig .tc .vmem S32x400x8 .f32) (h3 : a3.IsWhole)
    (a4 : Memref sig .tc .vmem S32x400x1 .f32) (h4 : a4.IsWhole) (a5 : Memref sig .tc .vmem S32 .f32) (h5 : a5.IsWhole)
    (hc : ¬cond0_0 i) (x0 : Vec F S32x8 .f32) (x1 x2 : Vec F S32x400x8 .f32) (x3 : Vec F S32x400x1 .f32) (xo : Vec F S32 .f32) :
    out0_B_4 c i a1 h1 a2 h2 a3 h3 a4 h4 a5 h5 hc x0 x1 x2 x3 xo = k0_pay2 x0 x1 x2 x3 xo := by
  unfold out0_B_4
  rw [View.read_writes_eq_canon _ _ _ (cover0_B_4 c i a1 h1 a2 h2 a3 h3 a4 h4 a5 h5 hc x0 x1 x2 x3 xo)]
  unfold kernelRun0_B
  dsimp only
  rw [View.canon_unit_zero hz1]
  simp only [View.readAt_eq_ld, h1.read_unread, h2.read_unread, h3.read_unread, h4.read_unread, h5.read_unread,
    View.ld_unit_zero (S := S32x8) hz2, View.ld_unit_zero (S := S32x400x8) hz3, View.ld_unit_zero (S := S32x400x1) hz3,
    View.ld_unit_zero (S := S32) hz1]

/-- The first point: the buffer is reset to zeros (`k0_pay1`) and ends at the body's arithmetic of the tile and
    the zeros. -/
theorem first (c : Dev nD) (i : grid0.Coords) (a1 : Memref sig .tc .vmem S32x8 .f32) (h1 : a1.IsWhole)
    (a2 : Memref sig .tc .vmem S32x400x8 .f32) (h2 : a2.IsWhole) (a3 : Memref sig .tc .vmem S32x400x8 .f32) (h3 : a3.IsWhole)
    (a4 : Memref sig .tc .vmem S32x400x1 .f32) (h4 : a4.IsWhole) (a5 : Memref sig .tc .vmem S32 .f32) (h5 : a5.IsWhole)
    (hc : cond0_0 i) (x0 : Vec F S32x8 .f32) (x1 x2 : Vec F S32x400x8 .f32) (x3 : Vec F S32x400x1 .f32) :
    out0_A_4 c i a1 h1 a2 h2 a3 h3 a4 h4 a5 h5 hc x0 x1 x2 x3 = k0_pay2 x0 x1 x2 x3 (k0_pay1 (F := F)) := by
  unfold out0_A_4
  rw [View.read_writes_eq_canon _ _ _ (cover0_A_4 c i a1 h1 a2 h2 a3 h3 a4 h4 a5 h5 hc x0 x1 x2 x3)]
  unfold kernelRun0_A
  dsimp only
  sl_unfold_words
  rw [View.canon_cons_unit_zero (S := S32) hz1, View.readCov_unit_zero (S := S32) _ hz1]
  simp only [View.readAt_eq_ld, h1.read_unread, h2.read_unread, h3.read_unread, h4.read_unread,
    View.ld_unit_zero (S := S32x8) hz2, View.ld_unit_zero (S := S32x400x8) hz3, View.ld_unit_zero (S := S32x400x1) hz3]

end Cert.KernelIdeal.Pieces
-- ==== Proof.HillEnergy.lean ====
/-
  The bias energy a walker feels from its deposited hills, on the extended reals.

  Walker `b` (one of 32) sits at the point `col b` of 8-dimensional space. Hill `h` of that walker has a centre
  `cen b h`, one precision per coordinate `prc b h`, and a height `hgt b h`. The hill contributes

      hgt b h · exp(−½ · Σ_d (cen b h d − col b d)² · prc b h d)

  and the walker's energy is the sum of the contributions of all its hills. The number of hills is a parameter: the
  energy of the whole history (200000 hills) and the energy of one tile of 400 consecutive hills are the same function at
  two sizes. The factor −½ stays the f32 word `0xBF000000` that both programs carry; nothing here needs its value.

  Everything is a finite sum of products, so no finiteness of the inputs is needed anywhere.
-/
import Idealize.ShloMosaic.PureOps.Ideal.Laws
import Idealize.ShloMosaic.Lib.ValueIdx

noncomputable section

namespace HillEnergy

open Idealize.ShloMosaic Idealize.ShloMosaic.ValueIdx

/-- The exponent of hill `h` for walker `b`: −½ times the squared distance from the walker to the hill's centre,
    each coordinate weighted by the hill's precision. -/
def exponent {n : ℕ} (col : (⟨2, ![32, 8]⟩ : Shape).Idx → EReal) (cen prc : (⟨3, ![32, n, 8]⟩ : Shape).Idx → EReal)
    (b : Fin 32) (h : Fin n) : EReal :=
  Ideal.ofBits .f32 0xBF000000#32 *
    ∑ d : Fin 8, (cen (ix3 b h d) - col (ix2 b d)) * (cen (ix3 b h d) - col (ix2 b d)) * prc (ix3 b h d)

/-- Hill `h`'s contribution to walker `b`'s energy: its height times the Gaussian of the exponent. -/
def hill {n : ℕ} (col : (⟨2, ![32, 8]⟩ : Shape).Idx → EReal) (cen prc : (⟨3, ![32, n, 8]⟩ : Shape).Idx → EReal)
    (hgt : Fin 32 → Fin n → EReal) (b : Fin 32) (h : Fin n) : EReal :=
  hgt b h * Ideal.exp (exponent col cen prc b h)

/-- Walker `b`'s energy: the sum of the contributions of its `n` hills. -/
def energy {n : ℕ} (col : (⟨2, ![32, 8]⟩ : Shape).Idx → EReal) (cen prc : (⟨3, ![32, n, 8]⟩ : Shape).Idx → EReal)
    (hgt : Fin 32 → Fin n → EReal) (b : Fin 32) : EReal :=
  ∑ h : Fin n, hill col cen prc hgt b h

/-- The contribution of hill `h` to walker `b` reads the walker's own point and row `h` of the centres, precisions
    and heights only: two sets of data that agree there — possibly two histories of different lengths, the hill at
    position `h` of one and `h'` of the other — give it the same contribution. -/
theorem hill_congr {n n' : ℕ} (col col' : (⟨2, ![32, 8]⟩ : Shape).Idx → EReal)
    (cen prc : (⟨3, ![32, n, 8]⟩ : Shape).Idx → EReal) (hgt : Fin 32 → Fin n → EReal)
    (cen' prc' : (⟨3, ![32, n', 8]⟩ : Shape).Idx → EReal) (hgt' : Fin 32 → Fin n' → EReal)
    (b : Fin 32) (h : Fin n) (h' : Fin n')
    (hcol : ∀ d : Fin 8, col (ix2 b d) = col' (ix2 b d))
    (hcen : ∀ d : Fin 8, cen (ix3 b h d) = cen' (ix3 b h' d)) (hprc : ∀ d : Fin 8, prc (ix3 b h d) = prc' (ix3 b h' d))
    (hhgt : hgt b h = hgt' b h') :
    hill col cen prc hgt b h = hill col' cen' prc' hgt' b h' := by
  unfold hill exponent
  rw [hhgt]
  refine congrArg (fun x => hgt' b h' * Ideal.exp (Ideal.ofBits .f32 0xBF000000#32 * x)) ?_
  exact Finset.sum_congr rfl fun d _ => by rw [hcol d, hcen d, hprc d]

end HillEnergy
-- ==== Proof.LibLastAxisSum.lean ====
/-
  A sum along the last axis of an `[a, b, c]` vector, read at an entry.

  A kernel's `multi_reduction <add>` over axis 2 of an `[a, b, c]` vector, from the zero accumulator, is on the
  extended reals the plain sum: entry `(p, q)` of the `[a, b]` result is the sum over `k` of the operand at
  `(p, q, k)`.
-/
import Idealize.ShloMosaic.PureOps.Ideal.Laws
import Idealize.ShloMosaic.Lib.ValueIdx

namespace LastAxisSum

open Idealize.ShloMosaic Idealize.ShloMosaic.ValueIdx

variable {a b c : ℕ}

/-- Entry `(p, q)` of the result with the coordinate `k` of the summed axis put back is the entry `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis, at entry `(p, q)`. -/
theorem lastSum_apply (v : FVec Ideal ⟨3, ![a, b, c]⟩ .f32) (h : Shape.Reduces ⟨3, ![a, b, c]⟩ [2] ⟨2, ![a, b]⟩)
    (hφ : FKind.Formats .f32) (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v 0x00000000#32 h hφ hacc (ix2 p q)).trans ?_
  exact Finset.sum_congr rfl fun k _ => congrArg v (lift_last h p q k)

end LastAxisSum
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.BodyTile.lean ====
/-
  What one run of the kernel's body adds to the accumulator, read at a walker.

  The body holds a tile: the 32 walkers' points `x0` ([32, 8]), 400 consecutive hills' centres `x1` and precisions
  `x2` ([32, 400, 8]) and their heights as a column `x3` ([32, 400, 1]). It subtracts the walker's point from every
  centre (the point repeated along the hill axis), squares, weights by the precisions, sums the 8 coordinates, scales
  by −½, exponentiates, multiplies by the heights (the column read as [32, 400]), sums the 400 hills, and adds the
  result to what the accumulator held. On the extended reals, at walker `b`, that is

      acc b + (the energy of the tile's 400 hills at walker b).
-/
import proofs.«107596_j36000415875082_2_alg».proof.Proof.Gen.KernelIdeal.Skeleton
import proofs.«107596_j36000415875082_2_alg».proof.Proof.HillEnergy
import proofs.«107596_j36000415875082_2_alg».proof.Proof.LibLastAxisSum
import proofs.«107596_j36000415875082_2_alg».proof.Proof.LibRowOps
import Idealize.ShloMosaic.Lib.Pipeline.Value

noncomputable section

namespace Cert.KernelIdeal.Tile

open Cert.KernelIdeal Cert.KernelIdeal.Gen Idealize.ShloMosaic Idealize.ShloMosaic.ValueIdx

/-- The heights' column [32, 400, 1] read as the matrix [32, 400]: entry `(b, hh)` is the column's `(b, hh, 0)`. -/
theorem heights_apply (x3 : Vec Ideal S32x400x1 .f32) (h1 : S32x400x1.ShapeCasts S32x400x1) (h2 : S32x400x1.ShapeCasts S32x400)
    (b : Fin 32) (hh : Fin 400) :
    shapeCast S32x400 (shapeCast S32x400x1 x3 h1) h2 (ix2 b hh) = x3 (ix3 b hh (0 : Fin 1)) := by
  rw [shapeCast_self]
  exact shapeCast_apply x3 h2 (ix2 b hh) (ix3 b hh (0 : Fin 1)) (by
    rw [Shape.rowMajor_val_three, Shape.rowMajor_val_two]
    show (b.val * 400 + hh.val) * 1 + 0 = b.val * 400 + hh.val
    omega)

/-- The walkers' points given a unit hill axis and repeated over the 400 hills: entry `(b, hh, d)` is the point's
    coordinate `(b, d)`. -/
theorem points_apply (x0 : Vec Ideal S32x8 .f32) (h1 : S32x8.ShapeCasts S32x1x8) (h2 : S32x1x8.Broadcasts S32x400x8)
    (b : Fin 32) (hh : Fin 400) (d : Fin 8) :
    broadcastTo S32x400x8 (shapeCast S32x1x8 x0 h1) h2 (ix3 b hh d) = x0 (ix2 b d) := by
  refine (broadcastTo_apply (shapeCast S32x1x8 x0 h1) h2 (ix3 b hh d) (ix3 b (0 : Fin 1) d) fun ax => ?_).trans ?_
  · match ax with
    | ⟨0, _⟩ => show b.val = if (32 : Nat) = 1 then 0 else b.val; rw [if_neg (by decide)]
    | ⟨1, _⟩ => show 0 = if (1 : Nat) = 1 then 0 else hh.val; rw [if_pos rfl]
    | ⟨2, _⟩ => show d.val = if (8 : Nat) = 1 then 0 else d.val; rw [if_neg (by decide)]
  · exact shapeCast_apply x0 h1 (ix3 b (0 : Fin 1) d) (ix2 b d) (by
      rw [Shape.rowMajor_val_three, Shape.rowMajor_val_two]
      show b.val * 8 + d.val = (b.val * 1 + 0) * 8 + d.val
      omega)

/-- The body's accumulated store (`k0_pay2`) at walker `b`: the accumulator's old value plus the tile's energy. -/
theorem pay2_apply (x0 : Vec Ideal S32x8 .f32) (x1 x2 : Vec Ideal S32x400x8 .f32) (x3 : Vec Ideal S32x400x1 .f32)
    (acc : Vec Ideal S32 .f32) (b : Fin 32) :
    k0_pay2 (F := Ideal) x0 x1 x2 x3 acc (ix1 b)
      = acc (ix1 b) + HillEnergy.energy (n := 400) x0 x1 x2 (fun b hh => x3 (ix3 b hh (0 : Fin 1))) b := by
  unfold k0_pay2
  dsimp only
  refine congrArg₂ (· + ·) (congrFun (shapeCast_self acc _) (ix1 b)) ?_
  refine (Gcn.Lib.rowSum_apply _ _ _ _ b).trans ?_
  unfold HillEnergy.energy
  refine Finset.sum_congr rfl fun hh _ => ?_
  unfold HillEnergy.hill HillEnergy.exponent
  refine congrArg₂ (· * ·) (heights_apply x3 _ _ b hh) ?_
  refine congrArg Ideal.exp ?_
  refine congrArg (Ideal.ofBits .f32 0xBF000000#32 * ·) ?_
  refine (LastAxisSum.lastSum_apply _ _ _ _ b hh).trans ?_
  refine Finset.sum_congr rfl fun d _ => ?_
  show (x1 (ix3 b hh d) - broadcastTo S32x400x8 (shapeCast S32x1x8 x0 _) _ (ix3 b hh d))
      * (x1 (ix3 b hh d) - broadcastTo S32x400x8 (shapeCast S32x1x8 x0 _) _ (ix3 b hh d)) * x2 (ix3 b hh d) = _
  rw [points_apply]

end Cert.KernelIdeal.Tile
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.TileBlocks.lean ====
/-
  The tile the body sees at a grid point, as entries of the whole arrays.

  The grid has one axis of 500 points. At point `t` the centres', precisions' and heights' windows hold hills
  `400·t, …, 400·t + 399` of every walker, and the points' window holds the whole [32, 8] array. The heights reach the
  kernel as a column [32, 200000, 1], made before the call by giving the [32, 200000] heights a unit last axis. So the
  energy of the tile at point `t` is the sum of the contributions of those 400 hills of the whole history.
-/
import proofs.«107596_j36000415875082_2_alg».proof.Proof.Gen.KernelIdeal.Frame
import proofs.«107596_j36000415875082_2_alg».proof.Proof.HillEnergy
import proofs.«107596_j36000415875082_2_alg».proof.Proof.LibGroupedSum
import Idealize.ShloMosaic.Lib.Pipeline.Value
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- 500 tiles of 400 hills are the 200000 hills. -/
theorem tiles_hills : cfg0.N * 400 = 200000 := by rw [show cfg0.N = 500 from N_0]

/-- Hill `hh` of the tile at point `t` is hill `400·t + hh` of the history. -/
abbrev hillAt (t : Fin cfg0.N) (hh : Fin 400) : Fin 200000 := ⟨t.val * 400 + hh.val, GroupedSum.group_lt tiles_hills t hh⟩

/-- The windows' block indices at point `t`: the hill axis of the three tiled windows moves with `t`, every other
    block index is zero. Decided over the grid. -/
theorem idx_facts : ∀ t : Fin cfg0.N,
    win0_0.index t (0 : Fin 2) = 0 ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 1) = 0 :=
  (by decide +kernel : ∀ t : Fin grid0.N, _)

/-- The points' block is the whole array. -/
theorem read_points (c : Dev nD) (t : Fin cfg0.N) (b : Fin 32) (d : Fin 8) :
    (iblk m c 0 t : Vec Ideal S32x8 .f32) (ix2 b d) = m ((c : Thread nD τ).loc main_arg0) (ix2 b d) := by
  refine Eq.trans ?_ (congrFun (V_main_arg0 m c) (ix2 b d))
  unfold iblk
  rw [View.read_apply]
  show V m c main_arg0 (((cfg0.win 0).blk t).view.emb (ix2 b d)) = V m c main_arg0 (ix2 b d)
  refine congrArg (V m c main_arg0) (funext fun a => Fin.ext ?_)
  obtain ⟨e0, e1, -⟩ := idx_facts t
  match a with
  | ⟨0, _⟩ => show win0_0.index t (0 : Fin 2) * 32 + 1 * b.val = b.val; omega
  | ⟨1, _⟩ => show win0_0.index t (1 : Fin 2) * 8 + 1 * d.val = d.val; omega

/-- The centres' block at point `t`: hills `400·t + hh`. -/
theorem read_centres (c : Dev nD) (t : Fin cfg0.N) (b : Fin 32) (hh : Fin 400) (d : Fin 8) :
    (iblk m c 1 t : Vec Ideal S32x400x8 .f32) (ix3 b hh d) = m ((c : Thread nD τ).loc main_arg1) (ix3 b (hillAt t hh) d) := by
  refine Eq.trans ?_ (congrFun (V_main_arg1 m c) (ix3 b (hillAt t hh) d))
  unfold iblk
  rw [View.read_apply]
  show V m c main_arg1 (((cfg0.win 1).blk t).view.emb (ix3 b hh d)) = V m c main_arg1 (ix3 b (hillAt t hh) d)
  refine congrArg (V m c main_arg1) (funext fun a => Fin.ext ?_)
  obtain ⟨-, -, e0, e1, e2, -⟩ := idx_facts t
  match a with
  | ⟨0, _⟩ => show win0_1.index t (0 : Fin 3) * 32 + 1 * b.val = b.val; omega
  | ⟨1, _⟩ => show win0_1.index t (1 : Fin 3) * 400 + 1 * hh.val = t.val * 400 + hh.val; omega
  | ⟨2, _⟩ => show win0_1.index t (2 : Fin 3) * 8 + 1 * d.val = d.val; omega

/-- The precisions' block at point `t`: hills `400·t + hh`. -/
theorem read_precisions (c : Dev nD) (t : Fin cfg0.N) (b : Fin 32) (hh : Fin 400) (d : Fin 8) :
    (iblk m c 2 t : Vec Ideal S32x400x8 .f32) (ix3 b hh d) = m ((c : Thread nD τ).loc main_arg2) (ix3 b (hillAt t hh) d) := by
  refine Eq.trans ?_ (congrFun (V_main_arg2 m c) (ix3 b (hillAt t hh) d))
  unfold iblk
  rw [View.read_apply]
  show V m c main_arg2 (((cfg0.win 2).blk t).view.emb (ix3 b hh d)) = V m c main_arg2 (ix3 b (hillAt t hh) d)
  refine congrArg (V m c main_arg2) (funext fun a => Fin.ext ?_)
  obtain ⟨-, -, -, -, -, e0, e1, e2, -⟩ := idx_facts t
  match a with
  | ⟨0, _⟩ => show win0_2.index t (0 : Fin 3) * 32 + 1 * b.val = b.val; omega
  | ⟨1, _⟩ => show win0_2.index t (1 : Fin 3) * 400 + 1 * hh.val = t.val * 400 + hh.val; omega
  | ⟨2, _⟩ => show win0_2.index t (2 : Fin 3) * 8 + 1 * d.val = d.val; omega

/-- The heights' column as the region finds it: the heights with a unit last axis. -/
theorem heights_column (c : Dev nD) :
    (V m c main_v0 : S32x200000x1.Idx → EReal)
      = broadcastInDim S32x200000x1 ![0, 1] bcast_S32x200000_S32x200000x1_0_1 (m ((c : Thread nD τ).loc main_arg3)) := by
  show StableHlo.after hostOps0 (fun b => m (c, b)) (Proc.devRef .tc main_v0) = _
  after_results

/-- The heights' block at point `t`: hills `400·t + hh`. -/
theorem read_heights (c : Dev nD) (t : Fin cfg0.N) (b : Fin 32) (hh : Fin 400) :
    (iblk m c 3 t : Vec Ideal S32x400x1 .f32) (ix3 b hh (0 : Fin 1)) = m ((c : Thread nD τ).loc main_arg3) (ix2 b (hillAt t hh)) := by
  have hcol : V m c main_v0 (ix3 b (hillAt t hh) (0 : Fin 1)) = m ((c : Thread nD τ).loc main_arg3) (ix2 b (hillAt t hh)) := by
    rw [heights_column]
    exact broadcastInDim_apply _ bcast_S32x200000_S32x200000x1_0_1 _ (ix3 b (hillAt t hh) (0 : Fin 1)) (ix2 b (hillAt t hh)) (fun a =>
      match a with
      | ⟨0, _⟩ => by show b.val = if (32 : Nat) = 1 then 0 else b.val; rw [if_neg (by decide)]
      | ⟨1, _⟩ => by show t.val * 400 + hh.val = if (200000 : Nat) = 1 then 0 else t.val * 400 + hh.val; rw [if_neg (by decide)])
  refine Eq.trans ?_ hcol
  unfold iblk
  rw [View.read_apply]
  show V m c main_v0 (((cfg0.win 3).blk t).view.emb (ix3 b hh (0 : Fin 1))) = V m c main_v0 (ix3 b (hillAt t hh) (0 : Fin 1))
  refine congrArg (V m c main_v0) (funext fun a => Fin.ext ?_)
  obtain ⟨-, -, -, -, -, -, -, -, e0, e1, e2, -⟩ := idx_facts t
  match a with
  | ⟨0, _⟩ => show win0_3.index t (0 : Fin 3) * 32 + 1 * b.val = b.val; omega
  | ⟨1, _⟩ => show win0_3.index t (1 : Fin 3) * 400 + 1 * hh.val = t.val * 400 + hh.val; omega
  | ⟨2, _⟩ => show win0_3.index t (2 : Fin 3) * 1 + 1 * 0 = 0; omega

/-- The energy of the tile at point `t` is the sum of the contributions of hills `400·t, …, 400·t + 399` of the
    whole history. -/
theorem tile_energy (c : Dev nD) (t : Fin cfg0.N) (b : Fin 32) :
    HillEnergy.energy (n := 400) (iblk m c 0 t : Vec Ideal S32x8 .f32) (iblk m c 1 t : Vec Ideal S32x400x8 .f32)
        (iblk m c 2 t : Vec Ideal S32x400x8 .f32) (fun b hh => (iblk m c 3 t : Vec Ideal S32x400x1 .f32) (ix3 b hh (0 : Fin 1))) b
      = ∑ hh : Fin 400, HillEnergy.hill (n := 200000) (m ((c : Thread nD τ).loc main_arg0)) (m ((c : Thread nD τ).loc main_arg1))
          (m ((c : Thread nD τ).loc main_arg2)) (fun b h => m ((c : Thread nD τ).loc main_arg3) (ix2 b h)) b (hillAt t hh) := by
  unfold HillEnergy.energy
  exact Finset.sum_congr rfl fun hh _ =>
    HillEnergy.hill_congr _ _ _ _ _ _ _ _ b hh (hillAt t hh) (fun d => read_points m c t b d) (fun d => read_centres m c t b hh d)
      (fun d => read_precisions m c t b hh d) (read_heights m c t b hh)

end Cert.KernelIdeal.Blocks
-- ==== Proof.LibRunningSum.lean ====
/-
  A sum built one term at a time.

  Let `a 0 = p 0` and `a (n + 1) = a n + p (n + 1)` for the positions below `N`. Then `a n` is the sum of the first
  `n + 1` terms, and at the last position it is the sum of all `N` terms. Only the monoid laws of the addition are
  used, so the statement holds in any commutative additive monoid — on the extended reals without any finiteness
  assumption.
-/
import Idealize.ShloMosaic.Lib.ValueIdx

namespace RunningSum

variable {β : Type*} [AddCommMonoid β]

/-- The term at position `s`, and zero from `N` on: the terms as a sequence over all naturals. -/
def term {N : ℕ} (p : Fin N → β) (s : ℕ) : β := if h : s < N then p ⟨s, h⟩ else 0

theorem term_of_lt {N : ℕ} (p : Fin N → β) {s : ℕ} (h : s < N) : term p s = p ⟨s, h⟩ := dif_pos h

/-- After position `n` the running value is the sum of the terms at positions `0, …, n`. -/
theorem prefix_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩) :
    ∀ (n : ℕ) (h : n < N), a n h = ∑ s ∈ Finset.range (n + 1), term p s
  | 0, h => by rw [h0 h, Finset.sum_range_one, term_of_lt p h]
  | n + 1, h => by
    rw [hs n h, prefix_eq p a h0 hs n (Nat.lt_of_succ_lt h), Finset.sum_range_succ _ (n + 1), term_of_lt p h]

/-- At the last position the running value is the sum of all the terms. -/
theorem last_eq {N : ℕ} (p : Fin N → β) (a : (n : ℕ) → n < N → β)
    (h0 : ∀ h : 0 < N, a 0 h = p ⟨0, h⟩)
    (hs : ∀ (n : ℕ) (h : n + 1 < N), a (n + 1) h = a n (Nat.lt_of_succ_lt h) + p ⟨n + 1, h⟩)
    (n : ℕ) (h : n < N) (hlast : n + 1 = N) : a n h = ∑ s : Fin N, p s := by
  rw [prefix_eq p a h0 hs n h, hlast, ← Fin.sum_univ_eq_sum_range (term p) N]
  exact Finset.sum_congr rfl fun s _ => term_of_lt p s.isLt

end RunningSum
-- ==== Proof.Accumulate.lean ====
/-
  The accumulator over the grid: after the last point it holds every walker's energy over the whole history.

  At the first point the accumulator is reset and receives the first tile's energy (zero plus the tile); at every
  later point it receives the running value plus that point's tile. So the value after the last point is the sum of the
  500 tiles' energies, each the sum of 400 consecutive hills' contributions — the sum of all 200000 contributions,
  regrouped. Only associativity and commutativity of the extended reals' addition enter.
-/
import proofs.«107596_j36000415875082_2_alg».proof.Proof.Pieces
import proofs.«107596_j36000415875082_2_alg».proof.Proof.BodyTile
import proofs.«107596_j36000415875082_2_alg».proof.Proof.TileBlocks
import proofs.«107596_j36000415875082_2_alg».proof.Proof.LibRunningSum

noncomputable section

namespace Cert.KernelIdeal.Accumulate

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Walker `b`'s energy over the whole history of hills, from the arrays the program was launched with. -/
abbrev total (c : Dev nD) (b : Fin 32) : EReal :=
  HillEnergy.energy (n := 200000) (m ((c : Thread nD τ).loc main_arg0)) (m ((c : Thread nD τ).loc main_arg1))
    (m ((c : Thread nD τ).loc main_arg2)) (fun b h => m ((c : Thread nD τ).loc main_arg3) (ix2 b h)) b

/-- The energy, for walker `b`, of the 400 hills the tile at point `t` holds. -/
def tileTerm (c : Dev nD) (b : Fin 32) (t : Fin cfg0.N) : EReal :=
  ∑ hh : Fin 400, HillEnergy.hill (n := 200000) (m ((c : Thread nD τ).loc main_arg0)) (m ((c : Thread nD τ).loc main_arg1))
    (m ((c : Thread nD τ).loc main_arg2)) (fun b h => m ((c : Thread nD τ).loc main_arg3) (ix2 b h)) b (Blocks.hillAt t hh)

/-- After the first point the accumulator holds the first tile's energy: the reset zero plus the tile. -/
theorem at_first (c : Dev nD) (b : Fin 32) (h : 0 < cfg0.N) :
    outsAt0 m c 0 h (ix1 b) = tileTerm m c b ⟨0, h⟩ := by
  have e : outsAt0 m c 0 h
      = k0_pay2 (F := Ideal) (iblk m c 0 ⟨0, h⟩) (iblk m c 1 ⟨0, h⟩) (iblk m c 2 ⟨0, h⟩) (iblk m c 3 ⟨0, h⟩) (k0_pay1 (F := Ideal)) :=
    (outsAt0_A m c ⟨0, h⟩ rfl).trans
      (Pieces.first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) (ms0_3 ⟨0, h⟩) (hs0_3 ⟨0, h⟩) (ms0_4 ⟨0, h⟩) (hs0_4 ⟨0, h⟩)
        ((hcond0_0 ⟨0, h⟩).mpr rfl) (iblk m c 0 ⟨0, h⟩) (iblk m c 1 ⟨0, h⟩) (iblk m c 2 ⟨0, h⟩) (iblk m c 3 ⟨0, h⟩))
  rw [e]
  refine (Tile.pay2_apply (iblk m c 0 ⟨0, h⟩) (iblk m c 1 ⟨0, h⟩) (iblk m c 2 ⟨0, h⟩) (iblk m c 3 ⟨0, h⟩) (k0_pay1 (F := Ideal)) b).trans ?_
  rw [Blocks.tile_energy m c ⟨0, h⟩ b]
  show Ideal.ofBits .f32 0x00000000#32 + tileTerm m c b ⟨0, h⟩ = tileTerm m c b ⟨0, h⟩
  rw [Ideal.ofBits_zero_f32, zero_add]

/-- After a later point the accumulator holds what it held after the point before, plus that point's tile. -/
theorem at_later (c : Dev nD) (b : Fin 32) (n : ℕ) (h : n + 1 < cfg0.N) :
    outsAt0 m c (n + 1) h (ix1 b) = outsAt0 m c n (Nat.lt_of_succ_lt h) (ix1 b) + tileTerm m c b ⟨n + 1, h⟩ := by
  have hN : cfg0.N = 500 := N_0
  have hB : ¬(⟨n + 1, h⟩ : Fin cfg0.N).val % 500 = 0 := by dsimp only; omega
  have e : outsAt0 m c (n + 1) h
      = k0_pay2 (F := Ideal) (iblk m c 0 ⟨n + 1, h⟩) (iblk m c 1 ⟨n + 1, h⟩) (iblk m c 2 ⟨n + 1, h⟩) (iblk m c 3 ⟨n + 1, h⟩)
          (outsAt0 m c n (Nat.lt_of_succ_lt h)) :=
    (outsAt0_B m c ⟨n + 1, h⟩ hB).trans
      (Pieces.later (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hc => hB ((hcond0_0 ⟨n + 1, h⟩).mp hc)) (iblk m c 0 ⟨n + 1, h⟩) (iblk m c 1 ⟨n + 1, h⟩) (iblk m c 2 ⟨n + 1, h⟩)
        (iblk m c 3 ⟨n + 1, h⟩) (outsAt0 m c n (Nat.lt_of_succ_lt h)))
  rw [e]
  refine (Tile.pay2_apply (iblk m c 0 ⟨n + 1, h⟩) (iblk m c 1 ⟨n + 1, h⟩) (iblk m c 2 ⟨n + 1, h⟩) (iblk m c 3 ⟨n + 1, h⟩)
    (outsAt0 m c n (Nat.lt_of_succ_lt h)) b).trans ?_
  rw [Blocks.tile_energy m c ⟨n + 1, h⟩ b]
  rfl

/-- The sum of the 500 tiles' energies is the energy over the whole history: the 200000 contributions regrouped. -/
theorem tiles_total (c : Dev nD) (b : Fin 32) : ∑ t : Fin cfg0.N, tileTerm m c b t = total m c b := by
  unfold tileTerm total HillEnergy.energy
  exact (GroupedSum.sum_groups Blocks.tiles_hills _).symm

/-- After the last point the accumulator holds, at every walker, the energy over the whole history. -/
theorem at_last (c : Dev nD) (b : Fin 32) (h : 499 < cfg0.N) : outsAt0 m c 499 h (ix1 b) = total m c b :=
  (RunningSum.last_eq (tileTerm m c b) (fun n hn => outsAt0 m c n hn (ix1 b)) (fun h0 => at_first m c b h0)
    (fun n hn => at_later m c b n hn) 499 h (by rw [show cfg0.N = 500 from N_0])).trans (tiles_total m c b)

end Cert.KernelIdeal.Accumulate
-- ==== Proof.NewHill.lean ====
/-
  The new hill's height, appended to the heights — one function of the walkers' energies.

  Both programs finish in the same way. From the energies `eng` ([32]), the temperatures `kbt` ([32]), the base
  height `hgt` and the bias factor `gam` (scalars) they form the new hill's height

      hgt · exp(−eng / (gam · kbt − kbt))

  for every walker and append it, as one more column, to the [32, 200000] heights. The two programs differ only in how
  they obtained `eng`; this module names the rest once, so that equal energies give equal results without the chain of
  operations ever being opened.
-/
import Idealize.ShloMosaic.PureOps.Ideal.Laws
import Idealize.ShloMosaic.Lib.ValueIdx

noncomputable section

namespace NewHill

open Idealize.ShloMosaic

/-- The heights with the new hill's height appended, from the energies. -/
def appended (eng kbt : FVec Ideal ⟨1, ![32]⟩ .f32) (hgt gam : FVec Ideal ⟨0, ![]⟩ .f32) (hgts : FVec Ideal ⟨2, ![32, 200000]⟩ .f32)
    (hs : (⟨0, ![]⟩ : Shape).BroadcastsInDim ⟨1, ![32]⟩ (![] : Fin 0 → Fin 1))
    (hcol : (⟨1, ![32]⟩ : Shape).BroadcastsInDim ⟨2, ![32, 1]⟩ (![0] : Fin 1 → Fin 2))
    (hcat : Shape.Concatenates [(⟨2, ![32, 200000]⟩ : Shape), ⟨2, ![32, 1]⟩] ⟨2, ![32, 200001]⟩ 1) :
    FVec Ideal ⟨2, ![32, 200001]⟩ .f32 :=
  concatenate ⟨2, ![32, 200001]⟩ 1
    [⟨⟨2, ![32, 200000]⟩, hgts⟩,
     ⟨⟨2, ![32, 1]⟩, broadcastInDim ⟨2, ![32, 1]⟩ ![0] hcol
        (mulf (F := Ideal) (broadcastInDim ⟨1, ![32]⟩ ![] hs hgt)
          (Host.exp (F := Ideal) (Host.divf (F := Ideal) (Host.negf (F := Ideal) eng)
            (subf (F := Ideal) (mulf (F := Ideal) (broadcastInDim ⟨1, ![32]⟩ ![] hs gam) kbt) kbt))))⟩]
    hcat

end NewHill
-- ==== Proof.KernelValue.lean ====
/-
  What the idealized kernel program's results hold after its run.

  The accumulator's window is written back once, after the last grid point, and its one block is the whole [32] array:
  the energies array ends holding every walker's energy over the whole history. The host operations after the call
  then append the walkers' points to the centres, the new precisions to the precisions, and — through the shared tail —
  the new hill's height, computed from those energies, to the heights. The argument arrays end unchanged.
-/
import proofs.«107596_j36000415875082_2_alg».proof.Proof.Accumulate
import proofs.«107596_j36000415875082_2_alg».proof.Proof.NewHill
import Idealize.ShloMosaic.Lib.Pipeline.Value
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every walker's energy over the whole history, as the contents of the energies array. -/
def energies (c : Dev nD) : Vec Ideal S32 .f32 := fun i => Accumulate.total m c (i 0)

/-- The one write-back, after the last point, writes the energies: the accumulator's block is the whole array. -/
theorem flushed_eq (c : Dev nD) (t : Fin cfg0.N) (hf : (cfg0.win 4).flush t = true) :
    (dats m 0 c).flushed 4 t = ((cfg0.win 4).blk t).view.read (Elt Ideal) (energies m c) := by
  have hN : cfg0.N = 500 := N_0
  have h499 : t.val = 499 := by have := (flush0_4 t).mp hf; have := t.isLt; omega
  have e : outsAt0 m c t.val t.isLt = energies m c := by
    obtain ⟨n, hn⟩ := t
    dsimp only at h499
    subst h499
    funext i
    rw [eq_ix1 i]
    exact Accumulate.at_last m c (i 0) hn
  have hz' : (fun a => win0_4.index t a * main_v1.ty.shape.size a) = fun _ => 0 := funext fun a => by
    have h0 : win0_4.index t (0 : Fin 1) = 0 := (Blocks.idx_facts t).2.2.2.2.2.2.2.2.2.2.2
    fin_cases a
    show win0_4.index t (0 : Fin 1) * 32 = 0
    omega
  show (cfg0.win 4).cut (grid0.coords t) ((dats m 0 c).after 4 t) = _
  rw [after0_4, e]
  exact (Memref.read_access_unit_zero (Elt Ideal) main_v1 hz' (fun a => by rw [congrFun hz' a]; simp) (energies m c)).symm

/-- An index of the energies array is in point `t`'s block iff its coordinate is in the block's range. -/
theorem mem_blk (t : Fin cfg0.N) (i : S32.Idx) :
    i ∈ ((cfg0.win 4).blk t).view.set ↔ ∀ a : Fin 1, win0_4.index t a * S32.size a ≤ (i a).val ∧ (i a).val < win0_4.index t a * S32.size a + S32.size a := by
  show i ∈ ((View.whole main_v1).slice (win0_4.rect t)).set ↔ _
  rw [View.set_slice_whole, Rect.mem_set_unit]
  exact Iff.rfl

/-- So the energies array ends holding the energies: the last point's block covers it. -/
theorem final (c : Dev nD) : (dats m 0 c).arrAt 4 cfg0.N = energies m c :=
  (dats m 0 c).arrAt_eq_of_cover 4 (energies m c) (flushed_eq m c) fun i => by
    have hN : (499 : ℕ) < cfg0.N := by rw [show cfg0.N = 500 from N_0]; decide
    refine ⟨⟨499, hN⟩, (flush0_4 ⟨499, hN⟩).mpr rfl, ?_⟩
    rw [mem_blk]
    intro a
    have h0 : win0_4.index ⟨499, hN⟩ (0 : Fin 1) = 0 := (Blocks.idx_facts ⟨499, hN⟩).2.2.2.2.2.2.2.2.2.2.2
    have hi : (i 0).val < 32 := (i 0).isLt
    fin_cases a
    show win0_4.index ⟨499, hN⟩ (0 : Fin 1) * 32 ≤ (i 0).val ∧ (i 0).val < win0_4.index ⟨499, hN⟩ (0 : Fin 1) * 32 + 32
    omega

/-! ## The arrays as the host operations after the call find them -/

/-- The walkers' points are an input of the call: unchanged. -/
theorem found_points (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_arr spec0 launch0.win.arr_inj c _ _ 0).trans
    (((dats m 0 c).arrAt_in 0 rfl _).trans ((A_eq m c 0).trans (V_main_arg0 m c)))

/-- The centres are an input of the call: unchanged. -/
theorem found_centres (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_arr spec0 launch0.win.arr_inj c _ _ 1).trans
    (((dats m 0 c).arrAt_in 1 rfl _).trans ((A_eq m c 1).trans (V_main_arg1 m c)))

/-- The precisions are an input of the call: unchanged. -/
theorem found_precisions (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_arr spec0 launch0.win.arr_inj c _ _ 2).trans
    (((dats m 0 c).arrAt_in 2 rfl _).trans ((A_eq m c 2).trans (V_main_arg2 m c)))

/-- The energies array is the call's output. -/
theorem found_energies (c : Dev nD) :
    Pipeline.withArrays (cfgs 0).spec c (V0 m c) (fun w => (dats m 0 c).arrAt w (cfgs 0).N) (Proc.devRef .tc main_v1)
      = energies m c :=
  (Pipeline.withArrays_arr spec0 launch0.win.arr_inj c _ _ 4).trans (final m c)

/-- The heights, temperatures, new precisions, base height and bias factor are no array of the call: as launched. -/
theorem found_heights (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by decide : ∀ w, Pipeline.arrRef spec0 w ≠ main_arg3)).trans (V_main_arg3 m c)
theorem found_kbt (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by decide : ∀ w, Pipeline.arrRef spec0 w ≠ main_arg4)).trans (V_main_arg4 m c)
theorem found_prc (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by decide : ∀ w, Pipeline.arrRef spec0 w ≠ main_arg5)).trans (V_main_arg5 m c)
theorem found_hgt (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by decide : ∀ w, Pipeline.arrRef spec0 w ≠ main_arg6)).trans (V_main_arg6 m c)
theorem found_gam (c : Dev nD) :
    Pipeline.withArrays (cfgs 0).spec c (V0 m c) (fun w => (dats m 0 c).arrAt w (cfgs 0).N) (Proc.devRef .tc main_arg7)
      = m ((c : Thread nD τ).loc main_arg7) :=
  (Pipeline.withArrays_of_ne _ c (V0 m c) _ main_arg7 (by decide : ∀ w, Pipeline.arrRef spec0 w ≠ main_arg7)).trans (V_main_arg7 m c)

/-! ## The three results -/

/-- The centres with the walkers' points appended. -/
theorem centres_out (c : Dev nD) :
    Pipeline.afterTail₀ cfgs (dats m) 0 (V0 m) [hostOps1] c main_v13
      = concatenate S32x200001x8 1 [⟨S32x200000x8, m ((c : Thread nD τ).loc main_arg1)⟩,
          ⟨S32x1x8, broadcastInDim S32x1x8 ![0, 2] bcast_S32x8_S32x1x8_0_2 (m ((c : Thread nD τ).loc main_arg0))⟩]
          concatenates_S32x200000x8_S32x1x8_S32x200001x8_d1 := by
  unfold Pipeline.afterTail₀
  show StableHlo.after hostOps1 _ (Proc.devRef .tc main_v13) = _
  after_results
  rw [found_points m c, found_centres m c]

/-- The precisions with the new hill's precisions appended. -/
theorem precisions_out (c : Dev nD) :
    Pipeline.afterTail₀ cfgs (dats m) 0 (V0 m) [hostOps1] c main_v15
      = concatenate S32x200001x8 1 [⟨S32x200000x8, m ((c : Thread nD τ).loc main_arg2)⟩,
          ⟨S32x1x8, broadcastInDim S32x1x8 ![0, 2] bcast_S32x8_S32x1x8_0_2 (broadcastInDim S32x8 ![0, 1] bcast_S1x8_S32x8_0_1
            (broadcastInDim S1x8 ![1] bcast_S8_S1x8_1 (m ((c : Thread nD τ).loc main_arg5))))⟩]
          concatenates_S32x200000x8_S32x1x8_S32x200001x8_d1 := by
  unfold Pipeline.afterTail₀
  show StableHlo.after hostOps1 _ (Proc.devRef .tc main_v15) = _
  after_results
  rw [found_precisions m c, found_prc m c]

/-- The heights with the new hill's height appended: the shared tail at the energies. -/
theorem heights_out (c : Dev nD) :
    Pipeline.afterTail₀ cfgs (dats m) 0 (V0 m) [hostOps1] c main_v17
      = NewHill.appended (energies m c) (m ((c : Thread nD τ).loc main_arg4)) (m ((c : Thread nD τ).loc main_arg6))
          (m ((c : Thread nD τ).loc main_arg7)) (m ((c : Thread nD τ).loc main_arg3))
          bcast_S_S32 bcast_S32_S32x1_0 concatenates_S32x200000_S32x1_S32x200001_d1 := by
  unfold Pipeline.afterTail₀
  show StableHlo.after hostOps1 _ (Proc.devRef .tc main_v17) = _
  after_results
  rw [found_heights m c, found_kbt m c, found_hgt m c, found_gam m c, found_energies m c]
  rfl

/-- The run, read: the three results at their values, the eight arguments unchanged. -/
theorem run : θ_run defs (onTc (τ := τ) (main (F := Ideal))) ⟨m, fun _ => 0, ρ⟩ fun r => ∀ c : Dev nD,
      r.2.mem ((c.tc : Thread nD τ).loc main_v13)
          = concatenate S32x200001x8 1 [⟨S32x200000x8, m ((c : Thread nD τ).loc main_arg1)⟩,
              ⟨S32x1x8, broadcastInDim S32x1x8 ![0, 2] bcast_S32x8_S32x1x8_0_2 (m ((c : Thread nD τ).loc main_arg0))⟩]
              concatenates_S32x200000x8_S32x1x8_S32x200001x8_d1
      ∧ r.2.mem ((c.tc : Thread nD τ).loc main_v15)
          = concatenate S32x200001x8 1 [⟨S32x200000x8, m ((c : Thread nD τ).loc main_arg2)⟩,
              ⟨S32x1x8, broadcastInDim S32x1x8 ![0, 2] bcast_S32x8_S32x1x8_0_2 (broadcastInDim S32x8 ![0, 1] bcast_S1x8_S32x8_0_1
                (broadcastInDim S1x8 ![1] bcast_S8_S1x8_1 (m ((c : Thread nD τ).loc main_arg5))))⟩]
              concatenates_S32x200000x8_S32x1x8_S32x200001x8_d1
      ∧ r.2.mem ((c.tc : Thread nD τ).loc main_v17)
          = NewHill.appended (energies m c) (m ((c : Thread nD τ).loc main_arg4)) (m ((c : Thread nD τ).loc main_arg6))
              (m ((c : Thread nD τ).loc main_arg7)) (m ((c : Thread nD τ).loc main_arg3))
              bcast_S_S32 bcast_S32_S32x1_0 concatenates_S32x200000_S32x1_S32x200001_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v13 (Pipeline.mem_restRefs_of main_v13 (by decide) (by decide))).trans (centres_out m c),
      ((h c).2 main_v15 (Pipeline.mem_restRefs_of main_v15 (by decide) (by decide))).trans (precisions_out m c),
      ((h c).2 main_v17 (Pipeline.mem_restRefs_of main_v17 (by decide) (by decide))).trans (heights_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue
-- ==== Proof.RefEnergy.lean ====
/-
  The reference's energy stage, read at a walker.

  The reference subtracts the walkers' points (repeated over all 200000 hills) from the centres, squares, weights by
  the precisions, sums the 8 coordinates from zero, scales by −½, exponentiates, multiplies by the heights and sums
  the 200000 hills from zero. On the extended reals the two zero starts drop out, and the stage at walker `b` is the
  energy of the whole history of hills.
-/
import proofs.«107596_j36000415875082_2_alg».proof.Proof.Gen.ReferenceIdeal.Read
import proofs.«107596_j36000415875082_2_alg».proof.Proof.HillEnergy

noncomputable section

namespace Cert.ReferenceIdeal.RefEnergy

open Cert.ReferenceIdeal Cert.ReferenceIdeal.Gen Cert.ReferenceIdeal.Read Idealize.ShloMosaic Idealize.ShloMosaic.ValueIdx

/-- The walkers' points repeated over the hills: entry `(b, h, d)` is the point's coordinate `(b, d)`. -/
theorem point_apply (x0 : (⟨S32x8, .f32⟩ : BufTy).Contents (Elt Ideal)) (b : Fin 32) (h : Fin 200000) (d : Fin 8) :
    val_main_v1 (F := Ideal) x0 (ix3 b h d) = x0 (ix2 b d) := by
  rw [val_main_v1_apply, val_main_v0_apply]
  exact congrArg x0 (funext fun a => Fin.ext (by match a with | ⟨0, _⟩ => rfl | ⟨1, _⟩ => rfl))

/-- The scaled sum of weighted squares at `(b, h)` is hill `h`'s exponent for walker `b`. -/
theorem exponent_apply (x0 : (⟨S32x8, .f32⟩ : BufTy).Contents (Elt Ideal))
    (x1 x2 : (⟨S32x200000x8, .f32⟩ : BufTy).Contents (Elt Ideal)) (b : Fin 32) (h : Fin 200000) :
    val_main_v7 (F := Ideal) x0 x1 x2 (ix2 b h) = HillEnergy.exponent (n := 200000) x0 x1 x2 b h := by
  rw [val_main_v7_apply, val_main_v6_apply, val_main_cst_0_apply, val_main_v5_apply, val_main_cst_apply]
  simp only [Ideal.mulf_def, Ideal.ofBits_def, Ideal.ofBits_zero_f32, zero_add]
  unfold HillEnergy.exponent
  refine congrArg (Ideal.ofBits .f32 0xBF000000#32 * ·) (Finset.sum_congr rfl fun d _ => ?_)
  have e : idx_main_v5 (ix2 b h) d = ix3 b h d :=
    funext fun a => Fin.ext (by match a with | ⟨0, _⟩ => rfl | ⟨1, _⟩ => rfl | ⟨2, _⟩ => rfl)
  rw [e, val_main_v4_apply, val_main_v3_apply, val_main_v2_apply, point_apply]
  rfl

/-- The reference's energy stage at walker `b`: the energy of all 200000 hills. -/
theorem energy_apply (x0 : (⟨S32x8, .f32⟩ : BufTy).Contents (Elt Ideal))
    (x1 x2 : (⟨S32x200000x8, .f32⟩ : BufTy).Contents (Elt Ideal)) (x3 : (⟨S32x200000, .f32⟩ : BufTy).Contents (Elt Ideal))
    (b : Fin 32) :
    val_main_v10 (F := Ideal) x0 x1 x2 x3 (ix1 b)
      = HillEnergy.energy (n := 200000) x0 x1 x2 (fun b h => x3 (ix2 b h)) b := by
  rw [val_main_v10_apply, val_main_cst_1_apply]
  simp only [Ideal.ofBits_def, Ideal.ofBits_zero_f32, zero_add]
  unfold HillEnergy.energy
  refine Finset.sum_congr rfl fun h _ => ?_
  have e : idx_main_v10 (ix1 b) h = ix2 b h :=
    funext fun a => Fin.ext (by match a with | ⟨0, _⟩ => rfl | ⟨1, _⟩ => rfl)
  rw [e, val_main_v9_apply, val_main_v8_apply, exponent_apply]
  rfl

end Cert.ReferenceIdeal.RefEnergy
-- ==== Proof.RefValue.lean ====
/-
  The reference's heights result through the shared tail.

  The reference's energy stage is, at every walker, the energy over the whole history of hills; and its heights result
  is the shared tail — the new hill's height appended to the heights — applied to that stage.
-/
import proofs.«107596_j36000415875082_2_alg».proof.Proof.RefEnergy
import proofs.«107596_j36000415875082_2_alg».proof.Proof.NewHill

noncomputable section

namespace Cert.ReferenceIdeal.RefValue

open Cert.ReferenceIdeal Cert.ReferenceIdeal.Gen Cert.ReferenceIdeal.Read Idealize.ShloMosaic Idealize.ShloMosaic.ValueIdx

/-- The reference's energy stage as one function of the arguments. -/
theorem energies_eq (x0 : (⟨S32x8, .f32⟩ : BufTy).Contents (Elt Ideal))
    (x1 x2 : (⟨S32x200000x8, .f32⟩ : BufTy).Contents (Elt Ideal)) (x3 : (⟨S32x200000, .f32⟩ : BufTy).Contents (Elt Ideal)) :
    val_main_v10 (F := Ideal) x0 x1 x2 x3
      = fun i => HillEnergy.energy (n := 200000) x0 x1 x2 (fun b h => x3 (ix2 b h)) (i 0) := by
  funext i
  rw [eq_ix1 i]
  exact RefEnergy.energy_apply x0 x1 x2 x3 (i 0)

/-- The reference's heights result is the shared tail at its energy stage. -/
theorem heights_out (x0 : (⟨S32x8, .f32⟩ : BufTy).Contents (Elt Ideal))
    (x1 x2 : (⟨S32x200000x8, .f32⟩ : BufTy).Contents (Elt Ideal)) (x3 : (⟨S32x200000, .f32⟩ : BufTy).Contents (Elt Ideal))
    (x4 : (⟨S32, .f32⟩ : BufTy).Contents (Elt Ideal)) (x6 x7 : (⟨S_, .f32⟩ : BufTy).Contents (Elt Ideal)) :
    val_main_v26 (F := Ideal) x0 x1 x2 x3 x4 x6 x7
      = NewHill.appended (val_main_v10 (F := Ideal) x0 x1 x2 x3) x4 x6 x7 x3
          bcast_S_S32 bcast_S32_S32x1_0 concatenates_S32x200000_S32x1_S32x200001_d1 := rfl

end Cert.ReferenceIdeal.RefValue
-- ==== Proof.lean ====
/- The proof of `Cert.Claim` for the well-tempered hill deposit: a Pallas kernel that accumulates every walker's bias
   energy over 500 tiles of 400 hills, against the jnp reference that sums all 200000 hills at once.

   Both programs compute, for each of 32 walkers, the sum over its hills of height × exp(−½ · weighted squared distance),
   then the new hill's height hgt · exp(−energy / (gam·kbt − kbt)), and append the walker's point, the new precisions and
   that height to the centres, precisions and heights. They differ in one place only: the kernel adds the hills tile by
   tile into an accumulator that starts at zero, the reference in one sum. On the extended reals addition is associative
   and commutative, so the two energies are equal (Proof/Accumulate.lean over Proof/LibRunningSum.lean and
   Proof/LibGroupedSum.lean), and the rest is one shared chain of operations applied to equal values (Proof/NewHill.lean).
   No finiteness of the inputs is used.

   The three frames: the kernel's two are the frame certificates of its printed programs; the reference has no kernel
   launch and its frame is its run with the results dropped. The idealization rewrote nothing, so `preserves` is `True`. -/
import proofs.«107596_j36000415875082_2_alg».proof.Defs
import proofs.«107596_j36000415875082_2_alg».proof.Proof.Gen.Kernel
import proofs.«107596_j36000415875082_2_alg».proof.Proof.Gen.Kernel.Skeleton
import proofs.«107596_j36000415875082_2_alg».proof.Proof.Gen.Kernel.Launch
import proofs.«107596_j36000415875082_2_alg».proof.Proof.Gen.Kernel.Points
import proofs.«107596_j36000415875082_2_alg».proof.Proof.Gen.Kernel.Frame
import proofs.«107596_j36000415875082_2_alg».proof.Proof.Gen.KernelIdeal
import proofs.«107596_j36000415875082_2_alg».proof.Proof.Gen.KernelIdeal.Skeleton
import proofs.«107596_j36000415875082_2_alg».proof.Proof.Gen.KernelIdeal.Launch
import proofs.«107596_j36000415875082_2_alg».proof.Proof.Gen.KernelIdeal.Points
import proofs.«107596_j36000415875082_2_alg».proof.Proof.Gen.KernelIdeal.Frame
import proofs.«107596_j36000415875082_2_alg».proof.Proof.Gen.ReferenceIdeal
import proofs.«107596_j36000415875082_2_alg».proof.Proof.Gen.ReferenceIdeal.Run
import proofs.«107596_j36000415875082_2_alg».proof.Proof.Gen.ReferenceIdeal.Read
import proofs.«107596_j36000415875082_2_alg».proof.Proof.Gen.Pre_finite_inputs
import proofs.«107596_j36000415875082_2_alg».proof.Proof.KernelValue
import proofs.«107596_j36000415875082_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- At `Ideal`, from arguments that agree, both programs end with the same three results: the centres and the
    precisions are the same operations of the same arguments on both sides, and the heights are the shared tail at the
    energies — the kernel's accumulated over the tiles, the reference's summed at once, equal at every walker. -/
theorem algebraic : Cert.algebraic_KernelIdeal_ReferenceIdeal := by
  intro m ρ m' ρ' _ hagree
  refine ⟨_, _, _, Cert.KernelIdeal.KernelValue.run m ρ, ?_⟩
  refine (θ_run Cert.ReferenceIdeal.defs _ _).mono (fun _ h c => ?_) (Cert.ReferenceIdeal.Value.run (F := Ideal) m' ρ')
  obtain ⟨h22, h24, h26, hargs⟩ := h c
  obtain ⟨a0, a1, a2, a3, a4, a5, a6, a7⟩ := hagree c
  refine ⟨h22.trans ?_, h24.trans ?_, h26.trans ?_, hargs⟩
  · rw [a0, a1]
  · rw [a2, a5]
  · refine (Cert.ReferenceIdeal.Read.val_main_v26_eq _ _ _ _ _ _ _).trans ((Cert.ReferenceIdeal.RefValue.heights_out _ _ _ _ _ _ _).trans ?_)
    rw [Cert.ReferenceIdeal.RefValue.energies_eq, a0, a1, a2, a3, a4, a6, a7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
